-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x1024 : Shape := ⟨3, ![64, 2048, 1024]⟩
abbrev S256x1024 : Shape := ⟨2, ![256, 1024]⟩
abbrev S_ : Shape := ⟨0, ![]⟩

class Facts : Prop where
  bcast_S_S64x2048x1024 : S_.BroadcastsInDim S64x2048x1024 (![] : Fin 0 → Fin S64x2048x1024.rank)
  reducesTo_S64x2048x1024_S_d0_1_2 : S64x2048x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S64x2048x1024 .f32) (main_arg1 : FVec F S256x1024 .f32) : IVec S_ 1 :=
  let main_v0 : FVec F S64x2048x1024 .f32 := Host.absf main_arg0
  let main_cst : FVec F S_ .f32 := constant S_ .f32 0x7F800000#32
  let main_v1 : FVec F S64x2048x1024 .f32 := broadcastInDim S64x2048x1024 ![] bcast_S_S64x2048x1024 main_cst
  let main_v2 : IVec S64x2048x1024 1 := cmpf .olt main_v0 main_v1
  let main_c : IVec S_ 1 := constantI S_ 1 1#1
  let main_v3 : IVec S_ 1 := (fun x v => Host.reduce IntOp.andi x v reducesTo_S64x2048x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S64x2048x1024 : Shape := ⟨3, ![64, 2048, 1024]⟩
abbrev S256x1024 : Shape := ⟨2, ![256, 1024]⟩
abbrev S64x256x1024 : Shape := ⟨3, ![64, 256, 1024]⟩
abbrev S2x2048x1024 : Shape := ⟨3, ![2, 2048, 1024]⟩
abbrev S2x256x1024 : Shape := ⟨3, ![2, 256, 1024]⟩
abbrev S1x2048x1024 : Shape := ⟨3, ![1, 2048, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S64x2048x1024, .f32⟩
  | .hbm, ⟨1, _⟩ => ⟨S256x1024, .f32⟩
  | .hbm, ⟨2, _⟩ => ⟨S64x256x1024, .f32⟩
  | .local _ .vmem, ⟨0, _⟩ => ⟨S256x1024, .f32⟩
  | .local _ .vmem, ⟨1, _⟩ => ⟨S2x2048x1024, .f32⟩
  | .local _ .vmem, ⟨2, _⟩ => ⟨S2x2048x1024, .f32⟩
  | .local _ .vmem, ⟨3, _⟩ => ⟨S2x256x1024, .f32⟩
  | .local _ .vmem, ⟨4, _⟩ => ⟨S2x256x1024, .f32⟩
  | _, _ => ⟨S64x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  inb_S2x2048x1024_S1x2048x1024_0_0_0 : ∀ a, (![0, 0, 0] : Fin 3 → Nat) a + S1x2048x1024.size a ≤ S2x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  inb_S2x256x1024_S1x256x1024_0_0_0 : ∀ a, (![0, 0, 0] : Fin 3 → Nat) a + S1x256x1024.size a ≤ S2x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S2x2048x1024_S1x2048x1024_1_0_0 : ∀ a, (![1, 0, 0] : Fin 3 → Nat) a + S1x2048x1024.size a ≤ S2x2048x1024.size a
  inb_S2x256x1024_S1x256x1024_1_0_0 : ∀ a, (![1, 0, 0] : Fin 3 → Nat) a + S1x256x1024.size a ≤ S2x256x1024.size a
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x1024.size a ≤ S64x2048x1024.size a
  hwx0_1 : ∀ i : grid0.Coords, EltTy.bits .f32 = 32 ∨ (Rect.block (s := S64x2048x1024) S2x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1024.size a ≤ S64x256x1024.size a
  hwx0_2 : ∀ i : grid0.Coords, EltTy.bits .f32 = 32 ∨ (Rect.block (s := S64x256x1024) S2x256x1024.size (cc0_transform_2 i) (hinb0_2 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg1) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x1024 : Shape := ⟨3, ![64, 2048, 1024]⟩
abbrev S256x1024 : Shape := ⟨2, ![256, 1024]⟩
abbrev S64x2048x256 : Shape := ⟨3, ![64, 2048, 256]⟩
abbrev S64x256x2048 : Shape := ⟨3, ![64, 256, 2048]⟩
abbrev S_ : Shape := ⟨0, ![]⟩
abbrev S64x256 : Shape := ⟨2, ![64, 256]⟩
abbrev S64x256x1 : Shape := ⟨3, ![64, 256, 1]⟩
abbrev S64x256x1024 : Shape := ⟨3, ![64, 256, 1024]⟩

abbrev nBuf : Space → Nat
  | .hbm => 19
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S256x1024, .f32⟩
  | .hbm, ⟨2, _⟩ => ⟨S64x2048x256, .f32⟩
  | .hbm, ⟨3, _⟩ => ⟨S64x256x2048, .f32⟩
  | .hbm, ⟨4, _⟩ => ⟨S_, .f32⟩
  | .hbm, ⟨5, _⟩ => ⟨S64x256, .f32⟩
  | .hbm, ⟨6, _⟩ => ⟨S_, .f32⟩
  | .hbm, ⟨7, _⟩ => ⟨S64x256, .f32⟩
  | .hbm, ⟨8, _⟩ => ⟨S64x256, .f32⟩
  | .hbm, ⟨9, _⟩ => ⟨S64x256x1, .f32⟩
  | .hbm, ⟨10, _⟩ => ⟨S64x256x2048, .f32⟩
  | .hbm, ⟨11, _⟩ => ⟨S64x256x2048, .f32⟩
  | .hbm, ⟨12, _⟩ => ⟨S64x256x2048, .f32⟩
  | .hbm, ⟨13, _⟩ => ⟨S_, .f32⟩
  | .hbm, ⟨14, _⟩ => ⟨S64x256, .f32⟩
  | .hbm, ⟨15, _⟩ => ⟨S64x256x1, .f32⟩
  | .hbm, ⟨16, _⟩ => ⟨S64x256x2048, .f32⟩
  | .hbm, ⟨17, _⟩ => ⟨S64x256x2048, .f32⟩
  | .hbm, ⟨18, _⟩ => ⟨S64x256x1024, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S64x2048x256_S64x256x2048_0_2_1 : S64x2048x256.Transposes [0, 2, 1] S64x256x2048
  reducesTo_S64x256x2048_S64x256_d2 : S64x256x2048.ReducesTo [2] S64x256
  h_S_ : 0 < S_.numel
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x256x1_S64x256x2048_0_1_2 : S64x256x1.BroadcastsInDim S64x256x2048 (![0, 1, 2] : Fin 3 → Fin S64x256x2048.rank)
  dot_S64x2048x1024_S256x1024_S64x2048x256_2_1_01_0_n_n_wf : DotDims.WF S64x2048x1024 S256x1024 S64x2048x256 [2] [1] [0, 1] [0] [] []
  dot_S64x256x2048_S64x2048x1024_S64x256x1024_2_1_1_2_0_0_wf : DotDims.WF S64x256x2048 S64x2048x1024 S64x256x1024 [2] [1] [1] [2] [0] [0]

variable [Facts₀]

def dot_S64x2048x1024_S256x1024_S64x2048x256_2_1_01_0_n_n : DotDims S64x2048x1024 S256x1024 S64x2048x256 where
  lhsContracting := [2]
  rhsContracting := [1]
  lhsNonContracting := [0, 1]
  rhsNonContracting := [0]
  lhsBatch := []
  rhsBatch := []
  wf := dot_S64x2048x1024_S256x1024_S64x2048x256_2_1_01_0_n_n_wf
def dot_S64x256x2048_S64x2048x1024_S64x256x1024_2_1_1_2_0_0 : DotDims S64x256x2048 S64x2048x1024 S64x256x1024 where
  lhsContracting := [2]
  rhsContracting := [1]
  lhsNonContracting := [1]
  rhsNonContracting := [2]
  lhsBatch := [0]
  rhsBatch := [0]
  wf := dot_S64x256x2048_S64x2048x1024_S64x256x1024_2_1_1_2_0_0_wf

class Facts : Prop extends Facts₀ where

variable [Facts]
-- ==== Proof.SoftAttend.lean ====
/-
  Soft attention of a fixed set of label rows over the tokens of one text, as a function on the extended reals.

  For one label row `q` (a vector over the feature axis) and one text `t` (tokens × features):
    * the score of token `k` is the inner product `s k = Σ_d q d · t k d`;
    * the row maximum `M` is the fold of `max` over the tokens, started at the value of the word of −∞;
    * the weight of token `k` is `exp (s k − M) / Σ_j exp (s j − M)`, the softmax over the TOKEN axis, with the
      extended reals' own exponential and quotient;
    * the aligned feature `d` is `Σ_k weight k · t k d`.
  The whole result, for 64 texts of 2048 tokens × 1024 features and 256 label rows, is `G text label` at `(b, n, d)`:
  label row `n` attended over text `b`, feature `d`. Nothing here mentions a program.
-/
import Idealize.ShloMosaic.PureOps.Ideal
import Idealize.ShloMosaic.Lib.ValueIdx

noncomputable section

namespace Cert.SoftAttend

open Idealize.ShloMosaic Idealize.ShloMosaic.ValueIdx

/-- The score of token `k`: the inner product of the label row with the token's features. -/
def score (q : Fin 1024 → EReal) (t : Fin 2048 → Fin 1024 → EReal) (k : Fin 2048) : EReal :=
  ∑ d : Fin 1024, q d * t k d

/-- A score row's maximum: `max` folded over the tokens from the value of the word of −∞. -/
def rowMax (s : Fin 2048 → EReal) : EReal :=
  (Finset.univ : Finset (Fin 2048)).fold max (Ideal.ofBits .f32 0xFF800000#32) s

/-- The exponential of a score shifted by its row's maximum. -/
def expShift (s : Fin 2048 → EReal) (k : Fin 2048) : EReal := Ideal.exp (s k - rowMax s)

/-- The softmax weight of token `k` in its row. -/
def weight (s : Fin 2048 → EReal) (k : Fin 2048) : EReal :=
  Ideal.div (expShift s k) (∑ j : Fin 2048, expShift s j)

/-- Feature `d` of the label row aligned to the text: the weights' combination of the tokens' features. -/
def attend (q : Fin 1024 → EReal) (t : Fin 2048 → Fin 1024 → EReal) (d : Fin 1024) : EReal :=
  ∑ k : Fin 2048, weight (score q t) k * t k d

/-- Label row `n` attended over text `b`, feature `d`, read off the whole arrays. -/
def attendAt (text : (⟨3, ![64, 2048, 1024]⟩ : Shape).Idx → EReal) (label : (⟨2, ![256, 1024]⟩ : Shape).Idx → EReal)
    (b : Fin 64) (n : Fin 256) (d : Fin 1024) : EReal :=
  attend (fun d' => label (ix2 n d')) (fun k d' => text (ix3 b k d')) d

/-- The whole result array. -/
def G (text : (⟨3, ![64, 2048, 1024]⟩ : Shape).Idx → EReal) (label : (⟨2, ![256, 1024]⟩ : Shape).Idx → EReal) :
    (⟨3, ![64, 256, 1024]⟩ : Shape).Idx → EReal :=
  fun i => attendAt text label ⟨(i 0).val, (i 0).isLt⟩ ⟨(i 1).val, (i 1).isLt⟩ ⟨(i 2).val, (i 2).isLt⟩

theorem G_ix3 (text : (⟨3, ![64, 2048, 1024]⟩ : Shape).Idx → EReal) (label : (⟨2, ![256, 1024]⟩ : Shape).Idx → EReal)
    (b : Fin 64) (n : Fin 256) (d : Fin 1024) : G text label (ix3 b n d) = attendAt text label b n d := rfl

end Cert.SoftAttend

end
-- ==== Proof.LibRowFolds.lean ====
/-
  Reductions along the LAST axis read at an index written by coordinates, at the exact (extended-real) values.

  On the device, a `vector.multi_reduction` over axis 1 of an `[a, b]` array read at `n`: with an add body from the
  neutral accumulator it is `Σ_k src (n, k)`; with a maximum body it is `max` folded over `k` from the accumulator's
  value. On the host, a `stablehlo.reduce` with a maximum body over axis 2 of an `[m, a, b]` array read at `(e, n)` is
  `max` folded over `k` of the operand at `(e, n, k)`, from the initial value. And the word of −∞ is neutral for `max`.
  General: nothing here mentions a program.
-/
import Idealize.ShloMosaic.PureOps.Ideal.Laws
import Idealize.ShloMosaic.Lib.ValueIdx

noncomputable section

namespace Cert.LibRowFolds

open Idealize.ShloMosaic Idealize.ShloMosaic.ValueIdx

/-- Inserting coordinate `k` on axis 1 into the reduced index `n` gives `(n, k)`. -/
theorem lift_row {a b : ℕ} (h : (⟨2, ![a, b]⟩ : Shape).Reduces [1] ⟨1, ![a]⟩) (n : Fin a) (k : Fin b) :
    h.lift (ix1 n) k = ix2 n k := by
  funext ax; apply Fin.ext
  match ax with
  | ⟨0, _⟩ => rfl
  | ⟨1, _⟩ => rfl

/-- A device sum over axis 1 of `[a, b]` from the neutral accumulator, at `n`, is `Σ_k src (n, k)`. -/
theorem rowSum_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (n : Fin a) :
    multiReduction .add [1] ⟨1, ![a]⟩ src acc h hφ hacc (ix1 n) = ∑ k : Fin b, src (ix2 n k) := by
  refine (Ideal.multiReduction_add_single src acc h hφ hacc (ix1 n)).trans ?_
  exact Finset.sum_congr rfl fun k _ => congrArg src (lift_row h n k)

/-- A device maximum over axis 1 of `[a, b]`, at `n`, is `max` folded over `k` from the accumulator's value. -/
theorem rowMax_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  exact congrArg (fun f => Finset.fold max (Ideal.ofBits .f32 acc) f (Finset.univ : Finset (Fin b)))
    (funext fun k => congrArg src (lift_row h n k))

/-- Inserting coordinate `k` on axis 2 into the reduced index `(e, n)` gives `(e, n, k)`. -/
theorem lift_last3 {m a b : ℕ} (h : (⟨3, ![m, a, b]⟩ : Shape).Reduces [2] ⟨2, ![m, a]⟩) (e : Fin m) (n : Fin a)
    (k : Fin b) : h.lift (ix2 e n) k = ix3 e n k := by
  funext ax; apply Fin.ext
  match ax with
  | ⟨0, _⟩ => rfl
  | ⟨1, _⟩ => rfl
  | ⟨2, _⟩ => rfl

/-- A host maximum over axis 2 of `[m, a, b]`, at `(e, n)`, is `max` folded over `k` from the initial value. -/
theorem hostMax_last3_at {m a b : ℕ} {u : Shape} (x : FVec Ideal ⟨3, ![m, a, b]⟩ .f32) (init : u.Idx → Ideal .f32)
    (h' : (⟨3, ![m, a, b]⟩ : Shape).ReducesTo [2] ⟨2, ![m, a]⟩) (h : (⟨3, ![m, a, b]⟩ : Shape).Reduces [2] ⟨2, ![m, a]⟩)
    (hu : 0 < u.numel) (e : Fin m) (n : Fin a) :
    Host.reduce FloatOps.maximumf x init h' hu (ix2 e n)
      = (Finset.univ : Finset (Fin b)).fold max (init (Shape.Idx.first hu)) (fun k => x (ix3 e n k)) := by
  refine (Host.reduce_eq_fold_single FloatOps.maximumf x init h' h hu (ix2 e n)).trans ?_
  exact congrArg (fun f => Finset.fold max (init (Shape.Idx.first hu)) f (Finset.univ : Finset (Fin b)))
    (funext fun k => congrArg x (lift_last3 h e n k))

/-- The value of the word of −∞ is the least extended real, so it is neutral for `max`. -/
theorem max_negInf (y : EReal) : max (Ideal.ofBits .f32 0xFF800000#32) y = y := by
  simp [Ideal.ofBits, Ideal.ieee]

end Cert.LibRowFolds

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.SlabValue.lean ====
/-
  What the kernel's body computes for ONE text of its block, read entry by entry at the exact values.

  The body takes the label rows `q` (256 × 1024) and one text `kv` (2048 tokens × 1024 features) and computes, in
  order: the scores `q · kvᵀ` (both operands contracted on their feature axis), each score row's maximum, the
  exponentials of the scores shifted by it, each row's sum of those, their quotient — the softmax weights over the
  tokens —, and the product of the weights with `kv`. Changes of float format are the identity at the exact values.
  Read at `(n, d)` the result is `SoftAttend.attend` of label row `n` and the text, feature `d`: each stage below is
  the matching stage of that definition. The three stored or carried values of the body are this chain behind a cast
  that adds or drops a leading unit axis.
-/
import proofs.«128597_j48189533061851_2_alg».proof.Proof.Gen.KernelIdeal.Skeleton
import proofs.«128597_j48189533061851_2_alg».proof.Proof.SoftAttend
import proofs.«128597_j48189533061851_2_alg».proof.Proof.LibRowFolds
import proofs.«128597_j48189533061851_2_alg».proof.Proof.LibDotRows
import proofs.«128597_j48189533061851_2_alg».proof.Proof.LibPlainMatmul
import proofs.«128597_j48189533061851_2_alg».proof.Proof.LibKeepdims
import Idealize.ShloMosaic.Lib.ValueLayout
import Idealize.ShloMosaic.Lib.Pipeline.Value

noncomputable section

namespace Cert.KernelIdeal.SlabValue

open Cert.KernelIdeal Cert.KernelIdeal.Gen Idealize.ShloMosaic Idealize.ShloMosaic.ValueIdx Cert.SoftAttend

/-! ## Where the two products' dimension numbers send an output index and a contraction index -/

/-- The score product `[256, 1024] · [2048, 1024]`, both contracted on axis 1. -/
abbrev Dqk : DotDims S256x1024 S2048x1024 S256x2048 := dot_S256x1024_S2048x1024_S256x2048_1_1_0_0_n_n
/-- The weights' product `[256, 2048] · [2048, 1024]`, columns against rows. -/
abbrev Dav : DotDims S256x2048 S2048x1024 S256x1024 := dot_S256x2048_S2048x1024_S256x1024_1_0_0_1_n_n

theorem qk_l0 (i : S256x2048.Idx) (c : Dqk.contr.Idx) : (Dqk.lhsIdx i c 0).val = (i 0).val := by
  unfold DotDims.lhsIdx
  rw [dif_neg (show ¬(0 : Fin S256x1024.rank) ∈ Dqk.lhsBatch by decide),
    dif_pos (show (0 : Fin S256x1024.rank) ∈ Dqk.lhsNonContracting by decide)]
  rfl
theorem qk_l1 (i : S256x2048.Idx) (c : Dqk.contr.Idx) : (Dqk.lhsIdx i c 1).val = (c ⟨0, by decide⟩).val :=
  Dqk.lhsIdx_val_of_single rfl i c
theorem qk_r0 (i : S256x2048.Idx) (c : Dqk.contr.Idx) : (Dqk.rhsIdx i c 0).val = (i 1).val := by
  unfold DotDims.rhsIdx
  rw [dif_neg (show ¬(0 : Fin S2048x1024.rank) ∈ Dqk.rhsBatch by decide),
    dif_pos (show (0 : Fin S2048x1024.rank) ∈ Dqk.rhsNonContracting by decide)]
  rfl
theorem qk_r1 (i : S256x2048.Idx) (c : Dqk.contr.Idx) : (Dqk.rhsIdx i c 1).val = (c ⟨0, by decide⟩).val :=
  Dqk.rhsIdx_val_of_single rfl i c

theorem av_l0 (i : S256x1024.Idx) (c : Dav.contr.Idx) : (Dav.lhsIdx i c 0).val = (i 0).val := by
  unfold DotDims.lhsIdx
  rw [dif_neg (show ¬(0 : Fin S256x2048.rank) ∈ Dav.lhsBatch by decide),
    dif_pos (show (0 : Fin S256x2048.rank) ∈ Dav.lhsNonContracting by decide)]
  rfl
theorem av_l1 (i : S256x1024.Idx) (c : Dav.contr.Idx) : (Dav.lhsIdx i c 1).val = (c ⟨0, by decide⟩).val :=
  Dav.lhsIdx_val_of_single rfl i c
theorem av_r0 (i : S256x1024.Idx) (c : Dav.contr.Idx) : (Dav.rhsIdx i c 0).val = (c ⟨0, by decide⟩).val :=
  Dav.rhsIdx_val_of_single rfl i c
theorem av_r1 (i : S256x1024.Idx) (c : Dav.contr.Idx) : (Dav.rhsIdx i c 1).val = (i 1).val := by
  unfold DotDims.rhsIdx
  rw [dif_neg (show ¬(1 : Fin S2048x1024.rank) ∈ Dav.rhsBatch by decide),
    dif_pos (show (1 : Fin S2048x1024.rank) ∈ Dav.rhsNonContracting by decide)]
  rfl

/-! ## The chain, stage by stage -/

variable (q : FVec Ideal S256x1024 .f32) (kv : FVec Ideal S2048x1024 .f32)

/-- The scores. -/
def scores : FVec Ideal S256x2048 .f32 :=
  matmul Dqk (some .fp32) q kv (constant S256x2048 .f32 0x00000000#32)
/-- Each score row's maximum. -/
def maxes : FVec Ideal S256 .f32 :=
  multiReduction .maximumf [1] S256 (scores q kv) 0xFF800000#32 reduces_S256x2048_S256 (.inl rfl) rfl
/-- The exponentials of the shifted scores. -/
def exps : FVec Ideal S256x2048 .f32 :=
  exp (subf (scores q kv) (broadcastTo S256x2048 (shapeCast S256x1 (maxes q kv) shapeCasts_S256_S256x1) broadcasts_S256x1_S256x2048))
/-- Each row's sum of them. -/
def sums : FVec Ideal S256 .f32 :=
  multiReduction .add [1] S256 (exps q kv) 0x00000000#32 reduces_S256x2048_S256 (.inl rfl) rfl
/-- The softmax weights. -/
def weights : FVec Ideal S256x2048 .f32 :=
  divf (exps q kv) (broadcastTo S256x2048 (shapeCast S256x1 (sums q kv) shapeCasts_S256_S256x1) broadcasts_S256x1_S256x2048)
/-- The label rows aligned to the text. -/
def aligned : FVec Ideal S256x1024 .f32 :=
  matmul Dav none (truncf .bf16 (weights q kv) bitsLt_bf16_f32) (truncf .bf16 kv bitsLt_bf16_f32)
    (constant S256x1024 .f32 0x00000000#32)

/-- Label row `n` of `q` and the text `kv` as functions of coordinates. -/
abbrev rowOf (n : Fin 256) : Fin 1024 → EReal := fun d => q (ix2 n d)
abbrev textOf : Fin 2048 → Fin 1024 → EReal := fun k d => kv (ix2 k d)

theorem scores_at (n : Fin 256) (k : Fin 2048) : scores q kv (ix2 n k) = score (rowOf q n) (textOf kv) k :=
  LibDotRows.matmul_zero_at Dqk (some .fp32) rfl rfl qk_l0 qk_l1 qk_r0 qk_r1 q kv n k

theorem maxes_at (n : Fin 256) : maxes q kv (ix1 n) = rowMax (score (rowOf q n) (textOf kv)) := by
  refine (LibRowFolds.rowMax_at (scores q kv) 0xFF800000#32 reduces_S256x2048_S256 (.inl rfl) rfl n).trans ?_
  exact congrArg (fun f => Finset.fold max (Ideal.ofBits .f32 0xFF800000#32) f (Finset.univ : Finset (Fin 2048)))
    (funext fun k => scores_at q kv n k)

theorem exps_at (n : Fin 256) (k : Fin 2048) : exps q kv (ix2 n k) = expShift (score (rowOf q n) (textOf kv)) k := by
  show Ideal.exp (scores q kv (ix2 n k)
      - broadcastTo S256x2048 (shapeCast S256x1 (maxes q kv) shapeCasts_S256_S256x1) broadcasts_S256x1_S256x2048 (ix2 n k)) = _
  rw [Cert.Keepdims.broadcastTo_a1_ab_apply, Cert.Keepdims.shapeCast_a_a1_apply, scores_at, maxes_at]
  rfl

theorem sums_at (n : Fin 256) : sums q kv (ix1 n) = ∑ j : Fin 2048, expShift (score (rowOf q n) (textOf kv)) j := by
  refine (LibRowFolds.rowSum_at (exps q kv) 0x00000000#32 reduces_S256x2048_S256 (.inl rfl) rfl n).trans ?_
  exact Finset.sum_congr rfl fun j _ => exps_at q kv n j

theorem weights_at (n : Fin 256) (k : Fin 2048) : weights q kv (ix2 n k) = weight (score (rowOf q n) (textOf kv)) k := by
  show Ideal.div (exps q kv (ix2 n k))
      (broadcastTo S256x2048 (shapeCast S256x1 (sums q kv) shapeCasts_S256_S256x1) broadcasts_S256x1_S256x2048 (ix2 n k)) = _
  rw [Cert.Keepdims.broadcastTo_a1_ab_apply, Cert.Keepdims.shapeCast_a_a1_apply, exps_at, sums_at]
  rfl

/-- THE BODY'S VALUE FOR ONE TEXT, at `(n, d)`: label row `n` attended over the text, feature `d`. -/
theorem aligned_at (n : Fin 256) (d : Fin 1024) : aligned q kv (ix2 n d) = attend (rowOf q n) (textOf kv) d := by
  refine (LibPlainMatmul.matmul_zero_at Dav none rfl rfl av_l0 av_l1 av_r0 av_r1
    (truncf .bf16 (weights q kv) bitsLt_bf16_f32) (truncf .bf16 kv bitsLt_bf16_f32) n d).trans ?_
  unfold attend
  refine Finset.sum_congr rfl fun k _ => ?_
  show weights q kv (ix2 n k) * kv (ix2 k d) = _
  rw [weights_at]

/-! ## The body's three values -/

/-- The second text's value, carried to its store: the chain on the text behind the cast that drops the unit axis. -/
theorem pay3_eq (v0 : Vec Ideal S256x1024 .f32) (v19 : Vec Ideal S1x2048x1024 .f32) :
    k0_pay3 (F := Ideal) v0 v19 = aligned v0 (shapeCast S2048x1024 v19 shapeCasts_S1x2048x1024_S2048x1024) := rfl

/-- The first text's stored value: the chain, then the cast that adds the unit axis. -/
theorem pay2_eq (v0 : Vec Ideal S256x1024 .f32) (v1 : Vec Ideal S1x2048x1024 .f32) :
    k0_pay2 (F := Ideal) v0 v1
      = shapeCast S1x256x1024 (aligned v0 (shapeCast S2048x1024 v1 shapeCasts_S1x2048x1024_S2048x1024))
          shapeCasts_S256x1024_S1x256x1024 := rfl

/-- The second text's stored value: the carried value behind the cast that adds the unit axis. -/
theorem pay1_eq (v33 : FVec Ideal S256x1024 .f32) :
    k0_pay1 (F := Ideal) v33 = shapeCast S1x256x1024 v33 shapeCasts_S256x1024_S1x256x1024 := rfl

/-- A text slab `[1, 2048, 1024]` with its unit axis dropped, as a function of coordinates. -/
theorem textOf_drop (v : Vec Ideal S1x2048x1024 .f32) :
    textOf (shapeCast S2048x1024 v shapeCasts_S1x2048x1024_S2048x1024) = fun k d => v (ix3 (0 : Fin 1) k d) :=
  funext fun k => funext fun d => shapeCast_1ab_ab_apply v shapeCasts_S1x2048x1024_S2048x1024 k d

/-- The first text's stored value at `(u, n, d)`. -/
theorem pay2_at (v0 : Vec Ideal S256x1024 .f32) (v1 : Vec Ideal S1x2048x1024 .f32) (u : Fin 1) (n : Fin 256) (d : Fin 1024) :
    k0_pay2 (F := Ideal) v0 v1 (ix3 u n d) = attend (rowOf v0 n) (fun k d' => v1 (ix3 (0 : Fin 1) k d')) d := by
  rw [pay2_eq, shapeCast_ab_1ab_apply, aligned_at, textOf_drop]

/-- The second text's stored value at `(u, n, d)`. -/
theorem pay13_at (v0 : Vec Ideal S256x1024 .f32) (v19 : Vec Ideal S1x2048x1024 .f32) (u : Fin 1) (n : Fin 256) (d : Fin 1024) :
    k0_pay1 (F := Ideal) (k0_pay3 (F := Ideal) v0 v19) (ix3 u n d)
      = attend (rowOf v0 n) (fun k d' => v19 (ix3 (0 : Fin 1) k d')) d := by
  rw [pay1_eq, shapeCast_ab_1ab_apply, pay3_eq, aligned_at, textOf_drop]

end Cert.KernelIdeal.SlabValue

end
-- ==== Proof.BlockValue.lean ====
/-
  From the kernel's blocks to its whole result array.

  At grid point `t` the kernel holds the 256 label rows and the two texts `2t` and `2t + 1`, and its body stores two
  slabs into the output block: slab 0 is the first text's attention, slab 1 the second's (`SlabValue`). So the block the
  body leaves is ONE function of the block index `(i, n, d)`: label row `n` attended over text `i` of the pair, feature
  `d`. Block `t` of the output array covers texts `2t` and `2t + 1`, the input block of the texts sits at the same
  offset, and the label block is the whole label array; hence what point `t` writes back is block `t` of
  `SoftAttend.G` of the argument arrays. The 32 blocks tile the 64 texts, so the array after the run is `G`.
-/
import proofs.«128597_j48189533061851_2_alg».proof.Proof.Gen.KernelIdeal.Value
import proofs.«128597_j48189533061851_2_alg».proof.Proof.SlabValue

noncomputable section

namespace Cert.KernelIdeal.BlockValue

open Cert.KernelIdeal Cert.KernelIdeal.Gen Idealize.ShloMosaic Idealize.ShloMosaic.TcCoe Idealize.SL.Sem
open Idealize.ShloMosaic.ValueIdx Cert.SoftAttend
open Idealize.ShloMosaic.Pipeline (Dat)

/-! ## The block the body leaves, over any label block and any pair of texts -/

theorem zero2 : (![0, 0] : Fin 2 → Nat) = fun _ => 0 := by
  funext a; match a with | ⟨0, _⟩ => rfl | ⟨1, _⟩ => rfl

/-- The block as one function of its index: label row `n` over text `i` of the pair, feature `d`. -/
def pairAttend (x0 : Vec Ideal S256x1024 .f32) (x1 : Vec Ideal S2x2048x1024 .f32) : S2x256x1024.Idx → EReal :=
  fun y => attend (fun d' => x0 (ix2 ⟨(y 1).val, (y 1).isLt⟩ d')) (fun k d' => x1 (ix3 ⟨(y 0).val, (y 0).isLt⟩ k d'))
    ⟨(y 2).val, (y 2).isLt⟩

theorem pairAttend_ix3 (x0 : Vec Ideal S256x1024 .f32) (x1 : Vec Ideal S2x2048x1024 .f32) (i : Fin 2) (n : Fin 256)
    (d : Fin 1024) :
    pairAttend x0 x1 (ix3 i n d) = attend (fun d' => x0 (ix2 n d')) (fun k d' => x1 (ix3 i k d')) d := rfl

/-- The first text of the pair, loaded as a slab. -/
theorem ld_text0 (x1 : Vec Ideal S2x2048x1024 .f32) (k : Fin 2048) (d : Fin 1024) :
    View.ld x1 r0_1 (ix3 (0 : Fin 1) k d) = x1 (ix3 (0 : Fin 2) k d) := by
  show x1 (r0_1.emb (ix3 (0 : Fin 1) k d)) = _
  refine congrArg x1 (funext fun a => Fin.ext ?_)
  match a with
  | ⟨0, _⟩ => rfl
  | ⟨1, _⟩ => show 0 + 1 * k.val = k.val; omega
  | ⟨2, _⟩ => show 0 + 1 * d.val = d.val; omega

/-- The second text of the pair, loaded as a slab. -/
theorem ld_text1 (x1 : Vec Ideal S2x2048x1024 .f32) (k : Fin 2048) (d : Fin 1024) :
    View.ld x1 r0_3 (ix3 (0 : Fin 1) k d) = x1 (ix3 (1 : Fin 2) k d) := by
  show x1 (r0_3.emb (ix3 (0 : Fin 1) k d)) = _
  refine congrArg x1 (funext fun a => Fin.ext ?_)
  match a with
  | ⟨0, _⟩ => rfl
  | ⟨1, _⟩ => show 0 + 1 * k.val = k.val; omega
  | ⟨2, _⟩ => show 0 + 1 * d.val = d.val; omega

/-- Where the two stores' slabs sit in the block. -/
theorem slab0_emb (u : Fin 1) (n : Fin 256) (d : Fin 1024) : r0_2.emb (ix3 u n d) = ix3 (0 : Fin 2) n d := by
  funext a; apply Fin.ext
  match a with
  | ⟨0, _⟩ => show 0 + 1 * u.val = 0; omega
  | ⟨1, _⟩ => show 0 + 1 * n.val = n.val; omega
  | ⟨2, _⟩ => show 0 + 1 * d.val = d.val; omega
theorem slab1_emb (u : Fin 1) (n : Fin 256) (d : Fin 1024) : r0_4.emb (ix3 u n d) = ix3 (1 : Fin 2) n d := by
  funext a; apply Fin.ext
  match a with
  | ⟨0, _⟩ => show 1 + 1 * u.val = 1; omega
  | ⟨1, _⟩ => show 0 + 1 * n.val = n.val; omega
  | ⟨2, _⟩ => show 0 + 1 * d.val = d.val; omega

/-- WHAT THE BODY LEAVES in the output block: its two stores cover the block, and each slab is the attention of the
    label rows over its text. -/
theorem out_eq (x0 : Vec Ideal S256x1024 .f32) (x1 : Vec Ideal S2x2048x1024 .f32) :
    out0_2 (F := Ideal) x0 x1 = pairAttend x0 x1 := by
  unfold out0_2
  funext y
  refine View.canon_apply_of_pieces (Val := Elt Ideal) (e := .f32) (pairAttend x0 x1) _ ?_ y (cover0_2 _ _ y)
  intro pc hpc
  rcases List.mem_cons.mp hpc with rfl | hpc
  · intro x
    obtain ⟨u, n, d, rfl⟩ : ∃ (u : Fin 1) (n : Fin 256) (d : Fin 1024), x = ix3 u n d := ⟨x 0, x 1, x 2, eq_ix3 x⟩
    show k0_pay1 (F := Ideal) (k0_pay3 (F := Ideal) (View.ld x0 r0_0) (View.ld x1 r0_3)) (ix3 u n d)
      = pairAttend x0 x1 (r0_4.emb (ix3 u n d))
    rw [slab1_emb, pairAttend_ix3, SlabValue.pay13_at, View.ld_unit_zero (S := S256x1024) zero2]
    exact congrArg (fun f => attend (fun d' => x0 (ix2 n d')) f d) (funext fun k => funext fun d' => ld_text1 x1 k d')
  rcases List.mem_cons.mp hpc with rfl | hpc
  · intro x
    obtain ⟨u, n, d, rfl⟩ : ∃ (u : Fin 1) (n : Fin 256) (d : Fin 1024), x = ix3 u n d := ⟨x 0, x 1, x 2, eq_ix3 x⟩
    show k0_pay2 (F := Ideal) (View.ld x0 r0_0) (View.ld x1 r0_1) (ix3 u n d) = pairAttend x0 x1 (r0_2.emb (ix3 u n d))
    rw [slab0_emb, pairAttend_ix3, SlabValue.pay2_at, View.ld_unit_zero (S := S256x1024) zero2]
    exact congrArg (fun f => attend (fun d' => x0 (ix2 n d')) f d) (funext fun k => funext fun d' => ld_text0 x1 k d')
  nomatch hpc

/-- `attend` of equal rows, equal texts and equal features. -/
theorem attend_congr {q q' : Fin 1024 → EReal} {t t' : Fin 2048 → Fin 1024 → EReal} {d d' : Fin 1024}
    (hq : q = q') (ht : t = t') (hd : d = d') : attend q t d = attend q' t' d' := by
  subst hq; subst ht; subst hd; rfl

/-! ## The blocks in the arrays -/

variable (m : (ℓ : Loc nD τ sig) → Buf (Elt Ideal) ℓ) (ρ : Dev nD → PrngReg)

/-- The printed index maps, decided over the 32 grid points: the label block is the whole array, the block of texts
    moves with the output block along the text axis, and both stay at the origin of the other two axes. -/
theorem idx_facts : ∀ t : Fin cfg0.N, win0_0.index t (0 : Fin 2) = 0 ∧ win0_0.index t (1 : Fin 2) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 31 :=
  (by decide +kernel : ∀ t : Fin grid0.N, _)

/-- Every pair of texts is SOME point's. -/
theorem idx_onto : ∀ q0 : Fin 32, ∃ t : Fin cfg0.N, win0_2.index t = ![q0.val, 0, 0] :=
  (by decide +kernel : ∀ q0 : Fin 32, ∃ t : Fin grid0.N, win0_2.index t = ![q0.val, 0, 0])

/-- WHAT POINT `t` WRITES BACK is block `t` of the attention of the argument arrays. -/
theorem flushed_eq (c : Dev nD) (t : Fin cfg0.N) :
    (dats m 0 c).flushed 2 t
      = ((cfg0.win 2).blk t).view.read (Elt Ideal) (G (V m c main_arg0) (V m c main_arg1)) := by
  refine (Value.flushed2 m c t).trans ?_
  refine (congrArg ((cfg0.win 2).cut (grid0.coords t)) (out_eq (iblk m c 0 t) (iblk m c 1 t))).trans ?_
  obtain ⟨e00, e01, e10, e11, e12, e21, e22, -⟩ := idx_facts t
  funext y
  obtain ⟨i, n, d, rfl⟩ : ∃ (i : Fin 2) (n : Fin 256) (d : Fin 1024), y = ix3 i n d := ⟨y 0, y 1, y 2, eq_ix3 y⟩
  show pairAttend (iblk m c 0 t) (iblk m c 1 t) (ix3 i n d)
    = G (V m c main_arg0) (V m c main_arg1) (((cfg0.win 2).blk t).view.emb (ix3 i n d))
  rw [pairAttend_ix3]
  refine attend_congr (funext fun d' => ?_) (funext fun k => funext fun d' => ?_) (Fin.ext ?_)
  · show V m c main_arg1 (((cfg0.win 0).blk t).view.emb (ix2 n d')) = V m c main_arg1 _
    refine congrArg (V m c main_arg1) (funext fun a => Fin.ext ?_)
    match a with
    | ⟨0, _⟩ => show win0_0.index t (0 : Fin 2) * 256 + 1 * n.val = win0_2.index t (1 : Fin 3) * 256 + 1 * n.val; omega
    | ⟨1, _⟩ => show win0_0.index t (1 : Fin 2) * 1024 + 1 * d'.val = d'.val; omega
  · show V m c main_arg0 (((cfg0.win 1).blk t).view.emb (ix3 i k d')) = V m c main_arg0 _
    refine congrArg (V m c main_arg0) (funext fun a => Fin.ext ?_)
    match a with
    | ⟨0, _⟩ => show win0_1.index t (0 : Fin 3) * 2 + 1 * i.val = win0_2.index t (0 : Fin 3) * 2 + 1 * i.val; omega
    | ⟨1, _⟩ => show win0_1.index t (1 : Fin 3) * 2048 + 1 * k.val = k.val; omega
    | ⟨2, _⟩ => show win0_1.index t (2 : Fin 3) * 1024 + 1 * d'.val = d'.val; omega
  · show d.val = win0_2.index t (2 : Fin 3) * 1024 + 1 * d.val; omega

/-- An index of the array is in point `t`'s block iff each coordinate is in the block's range on its axis. -/
theorem mem_blk (t : Fin cfg0.N) (i : S64x256x1024.Idx) :
    i ∈ ((cfg0.win 2).blk t).view.set ↔ ∀ a : Fin 3, win0_2.index t a * S2x256x1024.size a ≤ (i a).val
      ∧ (i a).val < win0_2.index t a * S2x256x1024.size a + S2x256x1024.size a := by
  show i ∈ ((View.whole main_v0).slice (win0_2.rect t)).set ↔ _
  rw [View.set_slice_whole, Rect.mem_set_unit]
  exact Iff.rfl

/-- Every index of the array is in some point's block: text `b` belongs to pair `b / 2`. -/
theorem covered (i : S64x256x1024.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 1024 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE ARRAY after the run: the attention of the argument arrays (the blocks tile it). -/
theorem final (c : Dev nD) :
    (dats m 0 c).arrAt 2 cfg0.N
      = G (m ((c : Thread nD τ).loc main_arg0)) (m ((c : Thread nD τ).loc main_arg1)) :=
  (dats m 0 c).arrAt_eq_of_cover 2 _ (fun t _ => flushed_eq m c t) (fun i => covered i)

/-- The kernel's run, read: its result array ends at the attention of its arguments, which end unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BlockValue

end
-- ==== Proof.RefValue.lean ====
/-
  The reference program's result is the soft attention `SoftAttend.G` of its two arguments.

  The reference computes the scores with the text on the left, `text · labelᵀ` at `(b, k, n)`, and transposes them to
  `(b, n, k)`: entry by entry that is the inner product of label row `n` with token `k` of text `b`, the factors of each
  term exchanged (products of extended reals commute). Its row maximum is `max` folded over the tokens from the value of
  the word of −∞, followed by one more `max` with that same least value, which changes nothing. The shifted
  exponentials, their row sums (the host's sum starts from the value of the zero word, which is `0`), the quotient and
  the final product with the text are stage by stage those of the definition.
-/
import proofs.«128597_j48189533061851_2_alg».proof.Proof.Gen.ReferenceIdeal.Read
import proofs.«128597_j48189533061851_2_alg».proof.Proof.SoftAttend
import proofs.«128597_j48189533061851_2_alg».proof.Proof.LibRowFolds

noncomputable section

namespace Cert.ReferenceIdeal.RefValue

open Cert.ReferenceIdeal Cert.ReferenceIdeal.Gen Cert.ReferenceIdeal.Read Idealize.ShloMosaic Idealize.ShloMosaic.ValueIdx
open Cert.SoftAttend

variable (x0 : (⟨S64x2048x1024, .f32⟩ : BufTy).Contents (Elt Ideal)) (x1 : (⟨S256x1024, .f32⟩ : BufTy).Contents (Elt Ideal))

/-- Label row `n` and text `b` as functions of coordinates. -/
abbrev rowOf (n : Fin 256) : Fin 1024 → EReal := fun d => x1 (ix2 n d)
abbrev textOf (b : Fin 64) : Fin 2048 → Fin 1024 → EReal := fun k d => x0 (ix3 b k d)

/-- The transposed scores at `(b, n, k)`. -/
theorem scores_at (b : Fin 64) (n : Fin 256) (k : Fin 2048) :
    val_main_v1 (F := Ideal) x0 x1 (ix3 b n k) = score (rowOf x1 n) (textOf x0 b) k := by
  rw [val_main_v1_apply, val_main_v0_apply]
  unfold score
  refine Finset.sum_congr rfl fun d _ => ?_
  have el : lidx_main_v0 (idx_main_v1 (ix3 b n k)) d = ix3 b k d := funext fun a => Fin.ext (by
    match a with | ⟨0, _⟩ => rfl | ⟨1, _⟩ => rfl | ⟨2, _⟩ => rfl)
  have er : ridx_main_v0 (idx_main_v1 (ix3 b n k)) d = ix2 n d := funext fun a => Fin.ext (by
    match a with | ⟨0, _⟩ => rfl | ⟨1, _⟩ => rfl)
  rw [el, er]
  exact mul_comm _ _

/-- The row maxima as the host's reduce leaves them. -/
theorem reduced_at (b : Fin 64) (n : Fin 256) :
    val_main_v2 (F := Ideal) x0 x1 (ix2 b n) = rowMax (score (rowOf x1 n) (textOf x0 b)) := by
  unfold val_main_v2
  refine (LibRowFolds.hostMax_last3_at (val_main_v1 (F := Ideal) x0 x1) (val_main_cst (F := Ideal))
    reducesTo_S64x256x2048_S64x256_d2 (by decide) h_S_ b n).trans ?_
  exact congrArg (fun f => Finset.fold max (Ideal.ofBits .f32 0xFF800000#32) f (Finset.univ : Finset (Fin 2048)))
    (funext fun k => scores_at x0 x1 b n k)

/-- One more maximum with the least value changes nothing. -/
theorem maxes_at (b : Fin 64) (n : Fin 256) :
    val_main_v4 (F := Ideal) x0 x1 (ix2 b n) = rowMax (score (rowOf x1 n) (textOf x0 b)) := by
  rw [val_main_v4_apply, val_main_v3_apply, val_main_cst_0_apply, reduced_at]
  exact LibRowFolds.max_negInf _

/-- The maxima broadcast back over the tokens. -/
theorem maxes_bcast_at (b : Fin 64) (n : Fin 256) (k : Fin 2048) :
    val_main_v6 (F := Ideal) x0 x1 (ix3 b n k) = rowMax (score (rowOf x1 n) (textOf x0 b)) := by
  rw [val_main_v6_apply, val_main_v5_apply]
  have e : idx_main_v5 (idx_main_v6 (ix3 b n k)) = ix2 b n := funext fun a => Fin.ext (by
    match a with | ⟨0, _⟩ => rfl | ⟨1, _⟩ => rfl)
  rw [e, maxes_at]

theorem exps_at (b : Fin 64) (n : Fin 256) (k : Fin 2048) :
    val_main_v8 (F := Ideal) x0 x1 (ix3 b n k) = expShift (score (rowOf x1 n) (textOf x0 b)) k := by
  rw [val_main_v8_apply, val_main_v7_apply, scores_at, maxes_bcast_at]
  rfl

theorem sums_at (b : Fin 64) (n : Fin 256) :
    val_main_v9 (F := Ideal) x0 x1 (ix2 b n) = ∑ j : Fin 2048, expShift (score (rowOf x1 n) (textOf x0 b)) j := by
  rw [val_main_v9_apply]
  have z : val_main_cst_1 (F := Ideal) (Shape.Idx.first h_S_) = 0 := Ideal.ofBits_zero_f32
  rw [z, zero_add]
  refine Finset.sum_congr rfl fun j _ => ?_
  have e : idx_main_v9 (ix2 b n) j = ix3 b n j := funext fun a => Fin.ext (by
    match a with | ⟨0, _⟩ => rfl | ⟨1, _⟩ => rfl | ⟨2, _⟩ => rfl)
  rw [e, exps_at]

theorem weights_at (b : Fin 64) (n : Fin 256) (k : Fin 2048) :
    val_main_v12 (F := Ideal) x0 x1 (ix3 b n k) = weight (score (rowOf x1 n) (textOf x0 b)) k := by
  rw [val_main_v12_apply, exps_at, val_main_v11_apply, val_main_v10_apply]
  have e : idx_main_v10 (idx_main_v11 (ix3 b n k)) = ix2 b n := funext fun a => Fin.ext (by
    match a with | ⟨0, _⟩ => rfl | ⟨1, _⟩ => rfl)
  rw [e, sums_at]
  rfl

theorem result_at (b : Fin 64) (n : Fin 256) (d : Fin 1024) :
    val_main_v13 (F := Ideal) x0 x1 (ix3 b n d) = attendAt x0 x1 b n d := by
  rw [val_main_v13_apply]
  unfold attendAt attend
  refine Finset.sum_congr rfl fun k _ => ?_
  have el : lidx_main_v13 (ix3 b n d) k = ix3 b n k := funext fun a => Fin.ext (by
    match a with | ⟨0, _⟩ => rfl | ⟨1, _⟩ => rfl | ⟨2, _⟩ => rfl)
  have er : ridx_main_v13 (ix3 b n d) k = ix3 b k d := funext fun a => Fin.ext (by
    match a with | ⟨0, _⟩ => rfl | ⟨1, _⟩ => rfl | ⟨2, _⟩ => rfl)
  rw [el, er, weights_at]

/-- THE REFERENCE'S RESULT is the soft attention of its arguments. -/
theorem result_eq : val_main_v13 (F := Ideal) x0 x1 = G x0 x1 := by
  funext i
  obtain ⟨b, n, d, rfl⟩ : ∃ (b : Fin 64) (n : Fin 256) (d : Fin 1024), i = ix3 b n d := ⟨i 0, i 1, i 2, eq_ix3 i⟩
  rw [result_at, G_ix3]

end Cert.ReferenceIdeal.RefValue

end
-- ==== Proof.lean ====
/-
  The kernel — per grid point, for each of two texts: scores of the 256 label rows against the text's tokens, a softmax
  over the tokens, and the weights' product with the text — against the reference's two einsums around a softmax
  over the token axis.

  At the exact values both compute `SoftAttend.G`: entry `(b, n, d)` is `Σ_k w k · text (b, k, d)` with
  `w k = exp (s k − M) / Σ_j exp (s j − M)`, `s k = Σ_d' label (n, d') · text (b, k, d')`, `M` the row's maximum. The kernel
  side is `BlockValue.run` (each stored slab read entry by entry, the 32 blocks tiling the 64 texts); the reference side is
  `RefValue.result_eq` over its run. The two differ only where nothing changes a value on the extended reals: the order
  of the two factors of each score term, a transpose, and one more maximum with the least element — so the
  precondition is never opened. The three frames are the generated ones (the reference's is its run with the result
  dropped), and the idealization rewrote no operation.
-/
import proofs.«128597_j48189533061851_2_alg».proof.Defs
import proofs.«128597_j48189533061851_2_alg».proof.Proof.Gen.Kernel
import proofs.«128597_j48189533061851_2_alg».proof.Proof.Gen.Kernel.Skeleton
import proofs.«128597_j48189533061851_2_alg».proof.Proof.Gen.Kernel.Launch
import proofs.«128597_j48189533061851_2_alg».proof.Proof.Gen.Kernel.Points
import proofs.«128597_j48189533061851_2_alg».proof.Proof.Gen.Kernel.Frame
import proofs.«128597_j48189533061851_2_alg».proof.Proof.Gen.KernelIdeal
import proofs.«128597_j48189533061851_2_alg».proof.Proof.Gen.KernelIdeal.Skeleton
import proofs.«128597_j48189533061851_2_alg».proof.Proof.Gen.KernelIdeal.Launch
import proofs.«128597_j48189533061851_2_alg».proof.Proof.Gen.KernelIdeal.Points
import proofs.«128597_j48189533061851_2_alg».proof.Proof.Gen.KernelIdeal.Frame
import proofs.«128597_j48189533061851_2_alg».proof.Proof.Gen.ReferenceIdeal
import proofs.«128597_j48189533061851_2_alg».proof.Proof.Gen.Pre_finite_inputs
import proofs.«128597_j48189533061851_2_alg».proof.Proof.Gen.KernelIdeal.Value
import proofs.«128597_j48189533061851_2_alg».proof.Proof.Gen.ReferenceIdeal.Run
import proofs.«128597_j48189533061851_2_alg».proof.Proof.Gen.ReferenceIdeal.Read
import proofs.«128597_j48189533061851_2_alg».proof.Proof.BlockValue
import proofs.«128597_j48189533061851_2_alg».proof.Proof.RefValue
import Idealize.ShloMosaic.Adequacy
import Idealize.ShloMosaic.Init

noncomputable section

namespace Cert.Proof

open Idealize.ShloMosaic Idealize.ShloMosaic.TcCoe Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end, from memories agreeing on the arguments, with the attention `G` of those arguments. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
